-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 35
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S128x128, .bf16⟩
  | .hbm, ⟨30, _⟩ => ⟨S128x128, .bf16⟩
  | .hbm, ⟨31, _⟩ => ⟨S1x128, .f32⟩
  | .hbm, ⟨32, _⟩ => ⟨S1x128, .f32⟩
  | .hbm, ⟨33, _⟩ => ⟨S100000x1, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bitsLt_bf16_f32 : FTy.bits .bf16 < FTy.bits .f32
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The layer both programs compute, as one function of its arrays, entry by entry.

  For node features `x` (one row per node), the summed neighbour features `agg` (row `r` is the sum of the rows of `x` over the
  edges that end in node `r`) and the in-degrees `deg` (entry `r` is the number of such edges), the output at node `r` and
  feature `q` is

      max ( ((∑ₖ x[r,k]·Wself[q,k] + bself[q]) + ∑ₖ (agg[r,k] / max(deg[r], 1))·Wneigh[q,k]) + bneigh[q] , 0 )

  on the extended reals, the additions grouped as written. Both weight matrices enter transposed: entry `(q,k)` of a
  matrix multiplies entry `k` of the row.
-/
import Idealize.ShloMosaic.Lib.ValueIdx
import Idealize.ShloMosaic.PureOps.Ideal

noncomputable section

namespace Cert.Sage

open Idealize.ShloMosaic Idealize.ShloMosaic.ValueIdx

/-- The layer's output at node `r`, feature `q`. The two float literals are the words of `1.0` and `0.0`. -/
def layerAt (x agg : (⟨2, ![100000, 128]⟩ : Shape).Idx → EReal) (deg : (⟨1, ![100000]⟩ : Shape).Idx → EReal)
    (ws : (⟨2, ![128, 128]⟩ : Shape).Idx → EReal) (bs : (⟨1, ![128]⟩ : Shape).Idx → EReal)
    (wn : (⟨2, ![128, 128]⟩ : Shape).Idx → EReal) (bn : (⟨1, ![128]⟩ : Shape).Idx → EReal)
    (r : Fin 100000) (q : Fin 128) : EReal :=
  max ((((∑ k : Fin 128, x (ix2 r k) * ws (ix2 q k)) + bs (ix1 q))
        + ∑ k : Fin 128, Ideal.div (agg (ix2 r k)) (max (deg (ix1 r)) (Ideal.ofBits .f32 0x3F800000#32)) * wn (ix2 q k))
      + bn (ix1 q))
    (Ideal.ofBits .f32 0x00000000#32)

/-- The layer's whole output array. -/
def layer (x agg : (⟨2, ![100000, 128]⟩ : Shape).Idx → EReal) (deg : (⟨1, ![100000]⟩ : Shape).Idx → EReal)
    (ws : (⟨2, ![128, 128]⟩ : Shape).Idx → EReal) (bs : (⟨1, ![128]⟩ : Shape).Idx → EReal)
    (wn : (⟨2, ![128, 128]⟩ : Shape).Idx → EReal) (bn : (⟨1, ![128]⟩ : Shape).Idx → EReal) :
    (⟨2, ![100000, 128]⟩ : Shape).Idx → EReal :=
  fun i => layerAt x agg deg ws bs wn bn (i 0) (i 1)

theorem layer_ix2 (x agg : (⟨2, ![100000, 128]⟩ : Shape).Idx → EReal) (deg : (⟨1, ![100000]⟩ : Shape).Idx → EReal)
    (ws : (⟨2, ![128, 128]⟩ : Shape).Idx → EReal) (bs : (⟨1, ![128]⟩ : Shape).Idx → EReal)
    (wn : (⟨2, ![128, 128]⟩ : Shape).Idx → EReal) (bn : (⟨1, ![128]⟩ : Shape).Idx → EReal) (r : Fin 100000) (q : Fin 128) :
    layer x agg deg ws bs wn bn (ix2 r q) = layerAt x agg deg ws bs wn bn r q := rfl

end Cert.Sage

end
-- ==== Proof.RefSpec.lean ====
/-
  The reference computes the layer: its result, read one operation at a time at an entry `(r, q)`, is the formula of
  `Cert.Sage.layerAt` over the summed neighbour features and the in-degrees that its own scatter operations produce.
  The two matrix products are sums over the 128 input features; each transposed weight is read at the swapped entry, each
  bias and the clamped degree at the coordinate its broadcast keeps.
-/
import proofs.«112159_j39831526703907_1_alg».proof.Proof.Gen.ReferenceIdeal.Read
import proofs.«112159_j39831526703907_1_alg».proof.Proof.Spec

noncomputable section

namespace Cert.ReferenceIdeal.RefSpec

open Cert.ReferenceIdeal Cert.ReferenceIdeal.Read Idealize.ShloMosaic Idealize.ShloMosaic.ValueIdx

theorem lidx24 (r : Fin 100000) (q k : Fin 128) : lidx_main_v24 (ix2 r q) k = ix2 r k :=
  funext fun a => by match a with | ⟨0, _⟩ => rfl | ⟨1, _⟩ => rfl
theorem ridx24 (r : Fin 100000) (q k : Fin 128) : idx_main_v23 (ridx_main_v24 (ix2 r q) k) = ix2 q k :=
  funext fun a => by match a with | ⟨0, _⟩ => rfl | ⟨1, _⟩ => rfl
theorem lidx29 (r : Fin 100000) (q k : Fin 128) : lidx_main_v29 (ix2 r q) k = ix2 r k :=
  funext fun a => by match a with | ⟨0, _⟩ => rfl | ⟨1, _⟩ => rfl
theorem ridx29 (r : Fin 100000) (q k : Fin 128) : idx_main_v28 (ridx_main_v29 (ix2 r q) k) = ix2 q k :=
  funext fun a => by match a with | ⟨0, _⟩ => rfl | ⟨1, _⟩ => rfl
theorem idx26 (r : Fin 100000) (q : Fin 128) : idx_main_v25 (idx_main_v26 (ix2 r q)) = ix1 q :=
  funext fun a => by match a with | ⟨0, _⟩ => rfl
theorem idx32 (r : Fin 100000) (q : Fin 128) : idx_main_v31 (idx_main_v32 (ix2 r q)) = ix1 q :=
  funext fun a => by match a with | ⟨0, _⟩ => rfl
theorem idx21 (r : Fin 100000) (k : Fin 128) : idx_main_v20 (idx_main_v21 (ix2 r k)) = ix1 r :=
  funext fun a => by match a with | ⟨0, _⟩ => rfl

/-- The mean of the neighbour features as the reference forms it, at `(r, k)`: the neighbour sum over the in-degree
    clamped below by one. -/
theorem mean_apply (x0 : (⟨S100000x128, .f32⟩ : BufTy).Contents (Elt Ideal)) (x1 : (⟨S2x1600000, .i32⟩ : BufTy).Contents (Elt Ideal))
    (r : Fin 100000) (k : Fin 128) :
    val_main_v22 (F := Ideal) x0 x1 (ix2 r k)
      = Ideal.div (val_main_v13 (F := Ideal) x0 x1 (ix2 r k)) (max (val_main_v17 (F := Ideal) x1 (ix1 r)) (Ideal.ofBits .f32 0x3F800000#32)) := by
  rw [val_main_v22_apply, val_main_v21_apply, val_main_v20_apply, val_main_v19_apply, val_main_v18_apply, val_main_cst_3_apply, idx21]
  rfl

/-- The reference's result array is the layer of its arguments, of the neighbour sums `val_main_v13` and of the
    in-degrees `val_main_v17`. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v34 (F := Ideal) x0 x1 x2 x3 x4 x5
      = Cert.Sage.layer x0 (val_main_v13 (F := Ideal) x0 x1) (val_main_v17 (F := Ideal) x1) x2 x3 x4 x5 := by
  funext i
  obtain ⟨r, q, rfl⟩ : ∃ (r : Fin 100000) (q : Fin 128), i = ix2 r q := ⟨i 0, i 1, eq_ix2 i⟩
  rw [Cert.Sage.layer_ix2]
  unfold Cert.Sage.layerAt
  rw [val_main_v34_apply, val_main_v33_apply, val_main_v30_apply, val_main_v27_apply, val_main_v24_apply,
    val_main_v29_apply, val_main_v26_apply, val_main_v25_apply, val_main_v32_apply, val_main_v31_apply,
    val_main_call0_v0_apply, val_main_call0_cst_apply, idx26, idx32]
  refine congrArg₂ max (congrArg₂ (· + ·) (congrArg₂ (· + ·) (congrArg₂ (· + ·)
    (Finset.sum_congr rfl fun k _ => ?_) rfl) (Finset.sum_congr rfl fun k _ => ?_)) rfl) rfl
  · rw [val_main_v23_apply, lidx24, ridx24]
  · rw [val_main_v28_apply, lidx29, ridx29, mean_apply]

end Cert.ReferenceIdeal.RefSpec

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.Body.lean ====
/-
  One grid point's arithmetic, entry by entry, on the extended reals.

  A point of the grid works on 5000 consecutive nodes: it loads their rows of the features and of the neighbour sums, their
  in-degrees as a column, both weight matrices and both bias rows, and stores

      max ( ((x·Wselfᵀ + bself) + (agg / max(deg, 1))·Wneighᵀ) + bneigh , 0 ).

  Each product with a transposed weight into the zero accumulator is, at `(p, q)`, the sum over the 128 input features `k`
  of the left row's entry `k` times the weight's entry `(q, k)`; the narrowing of the operands is the identity on the
  extended reals; the degree column, clamped below by one, divides every entry of its row; a bias row is read at its column.
-/
import proofs.«112159_j39831526703907_1_alg».proof.Proof.Gen.KernelIdeal.Skeleton
import proofs.«112159_j39831526703907_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a transposed weight, into the zero accumulator, at `(p, q)`: the sum over the input features
    `k` of the row's entry `k` times the weight's entry `(q, k)`. -/
theorem matmul_transposed_apply (l : FVec Ideal S5000x128 .bf16) (w : FVec Ideal S128x128 .bf16)
    (hs : S128x128.ShapeCasts S128x128) (ht : S128x128.Transposes [1, 0] S128x128) (p : Fin 5000) (q : Fin 128) :
    matmul dot_S5000x128_S128x128_S5000x128_1_0_0_1_n_n none l (transpose S128x128 [1, 0] (shapeCast S128x128 w hs) ht)
        (constant (F := Ideal) S5000x128 .f32 0x00000000#32) (ix2 p q)
      = ∑ k : Fin 128, l (ix2 p k) * w (ix2 q k) := by
  rw [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  exact congrArg (l (ix2 p k) * ·) (transpose_ix2_apply w ht k q)

/-- The neighbour sums divided by the clamped in-degree, at `(p, k)`. -/
theorem mean_apply (agg : FVec Ideal S5000x128 .f32) (deg : FVec Ideal S5000x1 .f32)
    (h1 : S5000x128.ShapeCasts S5000x128) (h2 : S5000x1.ShapeCasts S5000x1) (h3 : S5000x1.Broadcasts S5000x128)
    (p : Fin 5000) (k : Fin 128) :
    divf (shapeCast S5000x128 agg h1)
        (broadcastTo S5000x128 (maximumf (shapeCast S5000x1 deg h2)
          (broadcast S5000x1 (Scalar.ofBits (F := Ideal) .f32 0x3F800000#32))) h3) (ix2 p k)
      = Ideal.div (agg (ix2 p k)) (max (deg (ix2 p (0 : Fin 1))) (Ideal.ofBits .f32 0x3F800000#32)) := by
  show Ideal.div (shapeCast S5000x128 agg h1 (ix2 p k)) (broadcastTo S5000x128 _ h3 (ix2 p k)) = _
  rw [Cert.LibColumnLayout.broadcastTo_a1_ab_apply]
  simp only [shapeCast_self]
  rfl

/-- A bias row broadcast over the block's rows, at `(p, q)`: the bias at column `q`. -/
theorem bias_apply (b : FVec Ideal S1x128 .f32) (h1 : S1x128.ShapeCasts S1x128) (h2 : S1x128.Broadcasts S5000x128)
    (p : Fin 5000) (q : Fin 128) :
    broadcastTo S5000x128 (shapeCast S1x128 b h1) h2 (ix2 p q) = b (ix2 (0 : Fin 1) q) := by
  rw [broadcastTo_1b_ab_apply, shapeCast_self]

/-- What a grid point stores, at `(p, q)` of its block. -/
theorem pay_apply (x agg : Vec Ideal S5000x128 .f32) (deg : Vec Ideal S5000x1 .f32) (ws wn : Vec Ideal S128x128 .bf16)
    (bs bn : Vec Ideal S1x128 .f32) (p : Fin 5000) (q : Fin 128) :
    k0_pay1 (F := Ideal) x agg deg ws wn bs bn (ix2 p q)
      = max ((((∑ k : Fin 128, x (ix2 p k) * ws (ix2 q k)) + bs (ix2 (0 : Fin 1) q))
            + ∑ k : Fin 128, Ideal.div (agg (ix2 p k)) (max (deg (ix2 p (0 : Fin 1))) (Ideal.ofBits .f32 0x3F800000#32)) * wn (ix2 q k))
          + bn (ix2 (0 : Fin 1) q))
        (Ideal.ofBits .f32 0x00000000#32) := by
  unfold k0_pay1
  dsimp only
  refine congrArg₂ max (congrArg₂ (· + ·) (congrArg₂ (· + ·) (congrArg₂ (· + ·) ?_ ?_) ?_) ?_) rfl
  · exact matmul_transposed_apply _ ws _ _ p q
  · exact bias_apply bs _ _ p q
  · exact (matmul_transposed_apply _ wn _ _ p q).trans
      (Finset.sum_congr rfl fun k _ => congrArg (· * wn (ix2 q k)) (mean_apply agg deg _ _ _ p k))
  · exact bias_apply bn _ _ p q

end Cert.KernelIdeal.Body

end
-- ==== Proof.Blocks.lean ====
/-
  From the grid's blocks to the whole result array.

  The grid has twenty points. Point `t` reads rows `5000·t … 5000·t + 4999` of the features, of the neighbour sums and of
  the degree column, reads both weights and both bias rows whole, and writes rows `5000·t … 5000·t + 4999` of the
  result. Entry `(p, q)` of what it writes is the layer's output at node `5000·t + p`, feature `q`, of the seven arrays as
  the grid finds them; the twenty row blocks tile the result (node `r` lies in block `r / 5000`), so the result array
  ends holding the layer's output.
-/
import proofs.«112159_j39831526703907_1_alg».proof.Proof.Gen.KernelIdeal.Value
import proofs.«112159_j39831526703907_1_alg».proof.Proof.Body
import proofs.«112159_j39831526703907_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A column `[100000, 1]` as the vector of its entries. -/
def colVec (D : S100000x1.Idx → EReal) : (⟨1, ![100000]⟩ : Shape).Idx → EReal :=
  fun j => D (ix2 (j 0 : Fin 100000) (0 : Fin 1))
/-- A row `[1, 128]` as the vector of its entries. -/
def rowVec (B : S1x128.Idx → EReal) : (⟨1, ![128]⟩ : Shape).Idx → EReal :=
  fun j => B (ix2 (0 : Fin 1) (j 0 : Fin 128))

/-- The layer's output of the seven arrays as the grid finds them. -/
def out (c : Dev nD) : S100000x128.Idx → EReal :=
  Cert.Sage.layer (V m c main_arg0) (V m c main_v13) (colVec (V m c main_v22)) (V m c main_v18) (rowVec (V m c main_v20))
    (V m c main_v19) (rowVec (V m c main_v21))

/-- The printed index maps over the twenty points: the three row-blocked inputs and the output move with the point,
    the weights and biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's array read at an index, through any point's view of it. -/
theorem read0 (c : Dev nD) (A : (b : Ref sig .tc) → Buf (Elt Ideal) ((c : Thread nD τ).loc b)) (t : Fin cfg0.N) (x : S100000x128.Idx) :
    cast (congrArg (Elt Ideal) ((cfg0.win 0).blk t).view.elt_eq) (A (Pipeline.arrRef spec0 0) x) = A main_arg0 x := rfl

/-- Point `t`'s block of the features, at `(p, k)`: row `5000·t + p` of the array. -/
theorem iblk0_apply (c : Dev nD) (t : Fin cfg0.N) (p : Fin 5000) (k : Fin 128) (r : Fin 100000)
    (hr : r.val = t.val * 5000 + p.val) :
    (iblk m c 0 t : Vec Ideal S5000x128 .f32) (ix2 p k) = V m c main_arg0 (ix2 r k) := by
  obtain ⟨e0, e1, -⟩ := idx_facts t
  unfold iblk
  rw [View.read_apply]
  have hidx : ((cfg0.win 0).blk t).view.emb (ix2 p k) = (ix2 r k : S100000x128.Idx) := funext fun a => Fin.ext (by
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega)
  rw [hidx]
  exact read0 c (V m c) t (ix2 r k)

/-- Window 1's array read at an index, through any point's view of it. -/
theorem read1 (c : Dev nD) (A : (b : Ref sig .tc) → Buf (Elt Ideal) ((c : Thread nD τ).loc b)) (t : Fin cfg0.N) (x : S100000x128.Idx) :
    cast (congrArg (Elt Ideal) ((cfg0.win 1).blk t).view.elt_eq) (A (Pipeline.arrRef spec0 1) x) = A main_v13 x := rfl

/-- Point `t`'s block of the neighbour sums, at `(p, k)`. -/
theorem iblk1_apply (c : Dev nD) (t : Fin cfg0.N) (p : Fin 5000) (k : Fin 128) (r : Fin 100000)
    (hr : r.val = t.val * 5000 + p.val) :
    (iblk m c 1 t : Vec Ideal S5000x128 .f32) (ix2 p k) = V m c main_v13 (ix2 r k) := by
  obtain ⟨-, -, e0, e1, -⟩ := idx_facts t
  unfold iblk
  rw [View.read_apply]
  have hidx : ((cfg0.win 1).blk t).view.emb (ix2 p k) = (ix2 r k : S100000x128.Idx) := funext fun a => Fin.ext (by
    match a with
    | ⟨0, _⟩ => show win0_1.index t (0 : Fin 2) * 5000 + 1 * p.val = r.val; rw [e0, hr]; omega
    | ⟨1, _⟩ => show win0_1.index t (1 : Fin 2) * 128 + 1 * k.val = k.val; rw [e1]; omega)
  rw [hidx]
  exact read1 c (V m c) t (ix2 r k)

/-- Window 2's array read at an index, through any point's view of it. -/
theorem read2 (c : Dev nD) (A : (b : Ref sig .tc) → Buf (Elt Ideal) ((c : Thread nD τ).loc b)) (t : Fin cfg0.N) (x : S100000x1.Idx) :
    cast (congrArg (Elt Ideal) ((cfg0.win 2).blk t).view.elt_eq) (A (Pipeline.arrRef spec0 2) x) = A main_v22 x := rfl

/-- Point `t`'s block of the degree column, at `(p, 0)`. -/
theorem iblk2_apply (c : Dev nD) (t : Fin cfg0.N) (p : Fin 5000) (r : Fin 100000)
    (hr : r.val = t.val * 5000 + p.val) :
    (iblk m c 2 t : Vec Ideal S5000x1 .f32) (ix2 p (0 : Fin 1)) = V m c main_v22 (ix2 r (0 : Fin 1)) := by
  obtain ⟨-, -, -, -, e0, e1, -⟩ := idx_facts t
  unfold iblk
  rw [View.read_apply]
  have hidx : ((cfg0.win 2).blk t).view.emb (ix2 p (0 : Fin 1)) = (ix2 r (0 : Fin 1) : S100000x1.Idx) := funext fun a => Fin.ext (by
    match a with
    | ⟨0, _⟩ => show win0_2.index t (0 : Fin 2) * 5000 + 1 * p.val = r.val; rw [e0, hr]; omega
    | ⟨1, _⟩ => show win0_2.index t (1 : Fin 2) * 1 + 1 * 0 = 0; rw [e1])
  rw [hidx]
  exact read2 c (V m c) t (ix2 r (0 : Fin 1))

/-- Window 3's array read at an index, through any point's view of it. -/
theorem read3 (c : Dev nD) (A : (b : Ref sig .tc) → Buf (Elt Ideal) ((c : Thread nD τ).loc b)) (t : Fin cfg0.N) (x : S128x128.Idx) :
    cast (congrArg (Elt Ideal) ((cfg0.win 3).blk t).view.elt_eq) (A (Pipeline.arrRef spec0 3) x) = A main_v18 x := rfl

/-- Every point reads the self weight whole. -/
theorem iblk3_apply (c : Dev nD) (t : Fin cfg0.N) (q k : Fin 128) :
    (iblk m c 3 t : Vec Ideal S128x128 .bf16) (ix2 q k) = V m c main_v18 (ix2 q k) := by
  obtain ⟨-, -, -, -, -, -, e0, e1, -⟩ := idx_facts t
  unfold iblk
  rw [View.read_apply]
  have hidx : ((cfg0.win 3).blk t).view.emb (ix2 q k) = (ix2 q k : S128x128.Idx) := funext fun a => Fin.ext (by
    match a with
    | ⟨0, _⟩ => show win0_3.index t (0 : Fin 2) * 128 + 1 * q.val = q.val; rw [e0]; omega
    | ⟨1, _⟩ => show win0_3.index t (1 : Fin 2) * 128 + 1 * k.val = k.val; rw [e1]; omega)
  rw [hidx]
  exact read3 c (V m c) t (ix2 q k)

/-- Window 4's array read at an index, through any point's view of it. -/
theorem read4 (c : Dev nD) (A : (b : Ref sig .tc) → Buf (Elt Ideal) ((c : Thread nD τ).loc b)) (t : Fin cfg0.N) (x : S1x128.Idx) :
    cast (congrArg (Elt Ideal) ((cfg0.win 4).blk t).view.elt_eq) (A (Pipeline.arrRef spec0 4) x) = A main_v20 x := rfl

/-- Every point reads the self bias row whole. -/
theorem iblk4_apply (c : Dev nD) (t : Fin cfg0.N) (q : Fin 128) :
    (iblk m c 4 t : Vec Ideal S1x128 .f32) (ix2 (0 : Fin 1) q) = V m c main_v20 (ix2 (0 : Fin 1) q) := by
  obtain ⟨-, -, -, -, -, -, -, -, e0, e1, -⟩ := idx_facts t
  unfold iblk
  rw [View.read_apply]
  have hidx : ((cfg0.win 4).blk t).view.emb (ix2 (0 : Fin 1) q) = (ix2 (0 : Fin 1) q : S1x128.Idx) := funext fun a => Fin.ext (by
    match a with
    | ⟨0, _⟩ => show win0_4.index t (0 : Fin 2) * 1 + 1 * 0 = 0; rw [e0]
    | ⟨1, _⟩ => show win0_4.index t (1 : Fin 2) * 128 + 1 * q.val = q.val; rw [e1]; omega)
  rw [hidx]
  exact read4 c (V m c) t (ix2 (0 : Fin 1) q)

/-- Window 5's array read at an index, through any point's view of it. -/
theorem read5 (c : Dev nD) (A : (b : Ref sig .tc) → Buf (Elt Ideal) ((c : Thread nD τ).loc b)) (t : Fin cfg0.N) (x : S128x128.Idx) :
    cast (congrArg (Elt Ideal) ((cfg0.win 5).blk t).view.elt_eq) (A (Pipeline.arrRef spec0 5) x) = A main_v19 x := rfl

/-- Every point reads the neighbour weight whole. -/
theorem iblk5_apply (c : Dev nD) (t : Fin cfg0.N) (q k : Fin 128) :
    (iblk m c 5 t : Vec Ideal S128x128 .bf16) (ix2 q k) = V m c main_v19 (ix2 q k) := by
  obtain ⟨-, -, -, -, -, -, -, -, -, -, e0, e1, -⟩ := idx_facts t
  unfold iblk
  rw [View.read_apply]
  have hidx : ((cfg0.win 5).blk t).view.emb (ix2 q k) = (ix2 q k : S128x128.Idx) := funext fun a => Fin.ext (by
    match a with
    | ⟨0, _⟩ => show win0_5.index t (0 : Fin 2) * 128 + 1 * q.val = q.val; rw [e0]; omega
    | ⟨1, _⟩ => show win0_5.index t (1 : Fin 2) * 128 + 1 * k.val = k.val; rw [e1]; omega)
  rw [hidx]
  exact read5 c (V m c) t (ix2 q k)

/-- Window 6's array read at an index, through any point's view of it. -/
theorem read6 (c : Dev nD) (A : (b : Ref sig .tc) → Buf (Elt Ideal) ((c : Thread nD τ).loc b)) (t : Fin cfg0.N) (x : S1x128.Idx) :
    cast (congrArg (Elt Ideal) ((cfg0.win 6).blk t).view.elt_eq) (A (Pipeline.arrRef spec0 6) x) = A main_v21 x := rfl

/-- Every point reads the neighbour bias row whole. -/
theorem iblk6_apply (c : Dev nD) (t : Fin cfg0.N) (q : Fin 128) :
    (iblk m c 6 t : Vec Ideal S1x128 .f32) (ix2 (0 : Fin 1) q) = V m c main_v21 (ix2 (0 : Fin 1) q) := by
  obtain ⟨-, -, -, -, -, -, -, -, -, -, -, -, e0, e1, -⟩ := idx_facts t
  unfold iblk
  rw [View.read_apply]
  have hidx : ((cfg0.win 6).blk t).view.emb (ix2 (0 : Fin 1) q) = (ix2 (0 : Fin 1) q : S1x128.Idx) := funext fun a => Fin.ext (by
    match a with
    | ⟨0, _⟩ => show win0_6.index t (0 : Fin 2) * 1 + 1 * 0 = 0; rw [e0]
    | ⟨1, _⟩ => show win0_6.index t (1 : Fin 2) * 128 + 1 * q.val = q.val; rw [e1]; omega)
  rw [hidx]
  exact read6 c (V m c) t (ix2 (0 : Fin 1) q)

theorem colVec_ix1 (D : S100000x1.Idx → EReal) (r : Fin 100000) : colVec D (ix1 r) = D (ix2 r (0 : Fin 1)) := rfl
theorem rowVec_ix1 (B : S1x128.Idx → EReal) (q : Fin 128) : rowVec B (ix1 q) = B (ix2 (0 : Fin 1) q) := rfl

/-- What point `t` computes at `(p, q)` of its block is the layer's output at node `r = 5000·t + p`, feature `q`. -/
theorem point_eq (c : Dev nD) (t : Fin cfg0.N) (p : Fin 5000) (q : Fin 128) (r : Fin 100000)
    (hr : r.val = t.val * 5000 + p.val) :
    k0_pay1 (F := Ideal) (iblk m c 0 t : Vec Ideal S5000x128 .f32) (iblk m c 1 t : Vec Ideal S5000x128 .f32)
        (iblk m c 2 t : Vec Ideal S5000x1 .f32) (iblk m c 3 t : Vec Ideal S128x128 .bf16) (iblk m c 5 t : Vec Ideal S128x128 .bf16)
        (iblk m c 4 t : Vec Ideal S1x128 .f32) (iblk m c 6 t : Vec Ideal S1x128 .f32) (ix2 p q)
      = out m c (ix2 r q) := by
  refine (Body.pay_apply (iblk m c 0 t : Vec Ideal S5000x128 .f32) (iblk m c 1 t : Vec Ideal S5000x128 .f32)
        (iblk m c 2 t : Vec Ideal S5000x1 .f32) (iblk m c 3 t : Vec Ideal S128x128 .bf16) (iblk m c 5 t : Vec Ideal S128x128 .bf16)
        (iblk m c 4 t : Vec Ideal S1x128 .f32) (iblk m c 6 t : Vec Ideal S1x128 .f32) p q).trans ?_
  show _ = Cert.Sage.layerAt (V m c main_arg0) (V m c main_v13) (colVec (V m c main_v22)) (V m c main_v18) (rowVec (V m c main_v20))
    (V m c main_v19) (rowVec (V m c main_v21)) r q
  unfold Cert.Sage.layerAt
  refine congrArg₂ max (congrArg₂ (· + ·) (congrArg₂ (· + ·) (congrArg₂ (· + ·)
    (Finset.sum_congr rfl fun k _ => ?_) ?_) (Finset.sum_congr rfl fun k _ => ?_)) ?_) rfl
  · rw [iblk0_apply m c t p k r hr, iblk3_apply m c t q k]
  · rw [rowVec_ix1]; exact iblk4_apply m c t q
  · rw [iblk1_apply m c t p k r hr, iblk2_apply m c t p r hr, iblk5_apply m c t q k, colVec_ix1]
  · rw [rowVec_ix1]; exact iblk6_apply m c t q

end Cert.KernelIdeal.Blocks

end
-- ==== Proof.Tile.lean ====
/-
  The twenty row blocks make the whole result.

  What point `t` writes back is rows `5000·t … 5000·t + 4999` of the layer's output; node `r` lies in block `r / 5000`, so the
  blocks cover the result array, which therefore ends holding the layer's output of the arrays the grid found.
-/
import proofs.«112159_j39831526703907_1_alg».proof.Proof.Blocks

noncomputable section

namespace Cert.KernelIdeal.Tile

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What point `t` writes back is block `t` of the layer's output. -/
theorem flushed_eq (c : Dev nD) (t : Fin cfg0.N) :
    (dats m 0 c).flushed 7 t = ((cfg0.win 7).blk t).view.read (Elt Ideal) (out m c) := by
  rw [Value.flushed7]
  unfold out0_7
  rw [View.canon_unit_zero hz]
  simp only [View.ld_unit_zero (S := S5000x128) hz, View.ld_unit_zero (S := S5000x1) hz, View.ld_unit_zero (S := S128x128) hz,
    View.ld_unit_zero (S := S1x128) hz]
  obtain ⟨-, -, -, -, -, -, -, -, -, -, -, -, -, -, e0, e1⟩ := idx_facts t
  have hN : t.val < 20 := by have h := t.isLt; have e : cfg0.N = 20 := N_0; omega
  refine funext fun (j : S5000x128.Idx) => ?_
  obtain ⟨p, q, rfl⟩ : ∃ (p : Fin 5000) (q : Fin 128), j = ix2 p q := ⟨j 0, j 1, eq_ix2 j⟩
  show k0_pay1 (F := Ideal) (iblk m c 0 t : Vec Ideal S5000x128 .f32) (iblk m c 1 t : Vec Ideal S5000x128 .f32)
        (iblk m c 2 t : Vec Ideal S5000x1 .f32) (iblk m c 3 t : Vec Ideal S128x128 .bf16) (iblk m c 5 t : Vec Ideal S128x128 .bf16)
        (iblk m c 4 t : Vec Ideal S1x128 .f32) (iblk m c 6 t : Vec Ideal S1x128 .f32) (ix2 p q)
      = out m c (((cfg0.win 7).blk t).view.emb (ix2 p q))
  have hp : p.val < 5000 := p.isLt
  refine (point_eq m c t p q ⟨t.val * 5000 + p.val, by omega⟩ rfl).trans ?_
  refine congrArg (out m c) (funext fun a => Fin.ext ?_)
  match a with
  | ⟨0, _⟩ => show t.val * 5000 + p.val = win0_7.index t (0 : Fin 2) * 5000 + 1 * p.val; rw [e0]; omega
  | ⟨1, _⟩ => show q.val = win0_7.index t (1 : Fin 2) * 128 + 1 * q.val; rw [e1]; omega

/-- An index of the result is in point `t`'s block iff each coordinate is in the block's range on its axis. -/
theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v23).slice (win0_7.rect t)).set ↔ _
  rw [View.set_slice_whole, Rect.mem_set_unit]
  exact Iff.rfl

/-- The twenty row blocks tile the result: node `r` lies in block `r / 5000`. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 5000 < cfg0.N := by have e : cfg0.N = 20 := N_0; omega
  obtain ⟨-, -, -, -, -, -, -, -, -, -, -, -, -, -, e0, e1⟩ := idx_facts ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 128 ≤ (i 1).val ∧ (i 1).val < win0_7.index ⟨(i 0).val / 5000, ht⟩ (1 : Fin 2) * 128 + 128
    rw [e1]; omega

/-- So the result array ends holding the layer's output of the arrays the grid found. -/
theorem final (c : Dev nD) : (dats m 0 c).arrAt 7 cfg0.N = out m c :=
  (dats m 0 c).arrAt_eq_of_cover 7 (out m c) (fun t _ => flushed_eq m c t) cover

/-- The run, read: the result array at the layer's output, the arguments unchanged. -/
theorem run : θ_run defs (onTc (τ := τ) (main (F := Ideal))) ⟨m, fun _ => 0, ρ⟩ fun r => ∀ c : Dev nD,
      r.2.mem ((c : Thread nD τ).loc main_v23) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Tile

end
-- ==== Proof.Entry.lean ====
/-
  What the grid finds in its seven input arrays.

  Before the grid runs, the program gathers the source node's row for every edge, adds those rows into the row of the
  edge's target node, and counts the edges per target node — the same three scatter and gather operations, on the same
  operands, as the reference's. So the neighbour sums and the in-degrees the grid reads are the reference's arrays; the
  degrees reach it recast as a column. The two weight matrices reach it narrowed, which on the extended reals is the
  identity, and the two biases recast as rows.
-/
import proofs.«112159_j39831526703907_1_alg».proof.Proof.Gen.KernelIdeal.Frame
import proofs.«112159_j39831526703907_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The neighbour sums the grid reads are the reference's, of the same features and edges. -/
theorem V_agg (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results
  rfl

/-- The in-degrees the grid reads are the reference's, recast as a column. -/
theorem V_deg (c : Dev nD) :
    (V m c main_v22 : S100000x1.Idx → EReal)
      = shapeCast S100000x1 (Cert.ReferenceIdeal.Read.val_main_v17 (F := Ideal) (m ((c : Thread nD τ).loc main_arg1))) shapeCasts_S100000_S100000x1 := by
  dsimp only [Gen.V, Gen.hostOps0]
  after_results
  rfl

/-- The self weight reaches the grid narrowed: on the extended reals, unchanged. -/
theorem V_ws (c : Dev nD) : (V m c main_v18 : S128x128.Idx → EReal) = m ((c : Thread nD τ).loc main_arg2) := by
  dsimp only [Gen.V, Gen.hostOps0]
  after_results
  rfl

/-- The neighbour weight likewise. -/
theorem V_wn (c : Dev nD) : (V m c main_v19 : S128x128.Idx → EReal) = m ((c : Thread nD τ).loc main_arg4) := by
  dsimp only [Gen.V, Gen.hostOps0]
  after_results
  rfl

/-- The self bias reaches the grid recast as a row. -/
theorem V_bs (c : Dev nD) :
    (V m c main_v20 : S1x128.Idx → EReal) = shapeCast S1x128 (m ((c : Thread nD τ).loc main_arg3)) shapeCasts_S128_S1x128 := by
  dsimp only [Gen.V, Gen.hostOps0]
  after_results
  rfl

/-- The neighbour bias likewise. -/
theorem V_bn (c : Dev nD) :
    (V m c main_v21 : S1x128.Idx → EReal) = shapeCast S1x128 (m ((c : Thread nD τ).loc main_arg5)) shapeCasts_S128_S1x128 := by
  dsimp only [Gen.V, Gen.hostOps0]
  after_results
  rfl

end Cert.KernelIdeal.Entry

end
-- ==== Proof.Bridge.lean ====
/-
  The grid's result in terms of the program's arguments.

  The seven arrays the grid reads are the features themselves, the reference's neighbour sums and in-degrees (the
  degrees as a column, entry `(r, 0)` the degree of node `r`), the two weights unchanged, and the two biases as rows (entry
  `(0, q)` the bias of feature `q`). So the layer's output of those arrays is the layer's output of the arguments, of the
  reference's neighbour sums and of its in-degrees.
-/
import proofs.«112159_j39831526703907_1_alg».proof.Proof.Blocks
import proofs.«112159_j39831526703907_1_alg».proof.Proof.Entry
import proofs.«112159_j39831526703907_1_alg».proof.Proof.LibColumnLayout
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The degree column the grid reads, as a vector, is the reference's in-degrees. -/
theorem colVec_deg (c : Dev nD) :
    Blocks.colVec (V m c main_v22) = Cert.ReferenceIdeal.Read.val_main_v17 (F := Ideal) (m ((c : Thread nD τ).loc main_arg1)) := by
  funext j
  obtain ⟨r, rfl⟩ : ∃ r : Fin 100000, j = ix1 r := ⟨j 0, eq_ix1 j⟩
  show V m c main_v22 (ix2 r (0 : Fin 1)) = _
  rw [Entry.V_deg]
  exact Cert.LibColumnLayout.shapeCast_a_a1_apply _ _ r 0

/-- The self bias row the grid reads, as a vector, is the bias argument. -/
theorem rowVec_bs (c : Dev nD) : Blocks.rowVec (V m c main_v20) = m ((c : Thread nD τ).loc main_arg3) := by
  funext j
  obtain ⟨q, rfl⟩ : ∃ q : Fin 128, j = ix1 q := ⟨j 0, eq_ix1 j⟩
  show V m c main_v20 (ix2 (0 : Fin 1) q) = _
  rw [Entry.V_bs]
  exact shapeCast_a_1a_apply _ _ 0 q

/-- The neighbour bias row likewise. -/
theorem rowVec_bn (c : Dev nD) : Blocks.rowVec (V m c main_v21) = m ((c : Thread nD τ).loc main_arg5) := by
  funext j
  obtain ⟨q, rfl⟩ : ∃ q : Fin 128, j = ix1 q := ⟨j 0, eq_ix1 j⟩
  show V m c main_v21 (ix2 (0 : Fin 1) q) = _
  rw [Entry.V_bn]
  exact shapeCast_a_1a_apply _ _ 0 q

/-- The result array the grid leaves is the layer's output of the arguments over the reference's neighbour sums and
    in-degrees. -/
theorem out_eq (c : Dev nD) :
    Blocks.out m c = Cert.Sage.layer (m ((c : Thread nD τ).loc main_arg0))
      (Cert.ReferenceIdeal.Read.val_main_v13 (F := Ideal) (m ((c : Thread nD τ).loc main_arg0)) (m ((c : Thread nD τ).loc main_arg1)))
      (Cert.ReferenceIdeal.Read.val_main_v17 (F := Ideal) (m ((c : Thread nD τ).loc main_arg1)))
      (m ((c : Thread nD τ).loc main_arg2)) (m ((c : Thread nD τ).loc main_arg3))
      (m ((c : Thread nD τ).loc main_arg4)) (m ((c : Thread nD τ).loc main_arg5)) := by
  unfold Blocks.out
  rw [colVec_deg, rowVec_bs, rowVec_bn, Entry.V_agg, Entry.V_ws, Entry.V_wn, V_main_arg0]

end Cert.KernelIdeal.Bridge

end
-- ==== Proof.lean ====
/-
  The certificate: a GraphSAGE layer as a row-blocked kernel against its plain formulation.

  Both programs gather each edge's source row of the features, add it into the row of the edge's target node, count the edges
  per target node, and then form, for node `r` and feature `q`,

      max ( ((∑ₖ x[r,k]·Wself[q,k] + bself[q]) + ∑ₖ (agg[r,k] / max(deg[r], 1))·Wneigh[q,k]) + bneigh[q] , 0 ).

  The kernel does the last step on twenty blocks of 5000 nodes, with the weights narrowed on the way into the matrix unit; the
  reference does it on the whole arrays. On the extended reals the narrowing is the identity, a product into a zero accumulator
  is the plain sum of products, and the kernel's and the host's quotient are one function, so each entry of either result is
  the formula above with the additions in the same order: no algebraic law is needed beyond reading each operation at an
  entry, and the finiteness of the inputs is not used. The three frames are the generated ones (the reference's is its
  generated run with the result dropped); the idealization rewrote nothing, so `preserves` is `True`.
-/
import proofs.«112159_j39831526703907_1_alg».proof.Defs
import proofs.«112159_j39831526703907_1_alg».proof.Proof.Gen.Kernel
import proofs.«112159_j39831526703907_1_alg».proof.Proof.Gen.Kernel.Skeleton
import proofs.«112159_j39831526703907_1_alg».proof.Proof.Gen.Kernel.Launch
import proofs.«112159_j39831526703907_1_alg».proof.Proof.Gen.Kernel.Points
import proofs.«112159_j39831526703907_1_alg».proof.Proof.Gen.Kernel.Frame
import proofs.«112159_j39831526703907_1_alg».proof.Proof.Gen.KernelIdeal
import proofs.«112159_j39831526703907_1_alg».proof.Proof.Gen.KernelIdeal.Skeleton
import proofs.«112159_j39831526703907_1_alg».proof.Proof.Gen.KernelIdeal.Launch
import proofs.«112159_j39831526703907_1_alg».proof.Proof.Gen.KernelIdeal.Points
import proofs.«112159_j39831526703907_1_alg».proof.Proof.Gen.KernelIdeal.Frame
import proofs.«112159_j39831526703907_1_alg».proof.Proof.Gen.ReferenceIdeal
import proofs.«112159_j39831526703907_1_alg».proof.Proof.Gen.Pre_finite_inputs
import proofs.«112159_j39831526703907_1_alg».proof.Proof.Gen.KernelIdeal.Value
import proofs.«112159_j39831526703907_1_alg».proof.Proof.Gen.ReferenceIdeal.Run
import proofs.«112159_j39831526703907_1_alg».proof.Proof.Gen.ReferenceIdeal.Read
import proofs.«112159_j39831526703907_1_alg».proof.Proof.RefSpec
import proofs.«112159_j39831526703907_1_alg».proof.Proof.Tile
import proofs.«112159_j39831526703907_1_alg».proof.Proof.Bridge
import Idealize.ShloMosaic.Adequacy
import Idealize.ShloMosaic.Init

noncomputable section

namespace Cert.Proof

open Idealize.ShloMosaic Idealize.SL.Sem Cert.Kernel

/-- Run from memories that agree on the arguments, the kernel's result array ends at the layer's output of the arrays its
    grid found, the reference's at the layer's output of its own intermediate arrays; the two are one function of the
    arguments. -/
theorem algebraic : Cert.algebraic_KernelIdeal_ReferenceIdeal := by
  intro m ρ m' ρ' _ hagree
  refine ⟨fun c => Cert.KernelIdeal.Blocks.out m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefSpec.result_eq, (hagree c).1, (hagree c).2.1,
    (hagree c).2.2.1, (hagree c).2.2.2.1, (hagree c).2.2.2.2.1, (hagree c).2.2.2.2.2]
  exact (Cert.KernelIdeal.Bridge.out_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
